-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000x256 : Shape := ⟨2, ![320000, 256]⟩
abbrev S320000 : Shape := ⟨1, ![320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1 : Shape := ⟨1, ![1]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S512 .f32) (main_arg10 : FVec F S512x256 .f32) (main_arg11 : FVec F S256 .f32) (main_arg12 : FVec F S1 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg10
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S512x256 .f32) (main_arg7 : FVec F S256 .f32) (main_arg8 : FVec F S256x512 .f32) (main_arg9 : FVec F S512 .f32) (main_arg10 : FVec F S512x256 .f32) (main_arg11 : FVec F S256 .f32) (main_arg12 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg8
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S20000x256 .f32) (main_arg1 : FVec F S320000x256 .f32) (main_arg2 : IVec S320000 32) (main_arg3 : IVec S320000 32) (main_arg4 : FVec F S256x512 .f32) (main_arg5 : FVec F S512 .f32) (main_arg6 : FVec F S512x256 .f32) (main_arg7 : FVec F S256 .f32) (main_arg8 : FVec F S256x512 .f32) (main_arg9 : FVec F S512 .f32) (main_arg10 : FVec F S512x256 .f32) (main_arg11 : FVec F S256 .f32) (main_arg12 : FVec F S1 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_arg12 main_v13 main_v16
-- ==== Kernel.lean ====
abbrev S20000x256 : Shape := ⟨2, ![20000, 256]⟩
abbrev S320000x256 : Shape := ⟨2, ![320000, 256]⟩
abbrev S320000 : Shape := ⟨1, ![320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1 : Shape := ⟨1, ![1]⟩
abbrev S1x512 : Shape := ⟨2, ![1, 512]⟩
abbrev S1x256 : Shape := ⟨2, ![1, 256]⟩
abbrev S3200x256 : Shape := ⟨2, ![3200, 256]⟩
abbrev S3200x512 : Shape := ⟨2, ![3200, 512]⟩
abbrev S_ : Shape := ⟨0, ![]⟩
abbrev S320000x1 : Shape := ⟨2, ![320000, 1]⟩
abbrev S4000x256 : Shape := ⟨2, ![4000, 256]⟩
abbrev S4000x512 : Shape := ⟨2, ![4000, 512]⟩

abbrev nBuf : Space → Nat
  | .hbm => 42
  | .vmem => 16
  | .smem => 0
  | _ => 0

abbrev bufTy : (tb : Table) → Fin (tcTables nBuf tb) → BufTy
  | .hbm, ⟨0, _⟩ => ⟨S20000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S1, .f32⟩
  | .hbm, ⟨13, _⟩ => ⟨S1x512, .f32⟩
  | .hbm, ⟨14, _⟩ => ⟨S1x256, .f32⟩
  | .hbm, ⟨15, _⟩ => ⟨S320000x256, .f32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x256, .f32⟩
  | .hbm, ⟨25, _⟩ => ⟨S320000x256, .f32⟩
  | .hbm, ⟨26, _⟩ => ⟨S_, .f32⟩
  | .hbm, ⟨27, _⟩ => ⟨S320000x256, .f32⟩
  | .hbm, ⟨28, _⟩ => ⟨S320000x256, .f32⟩
  | .hbm, ⟨29, _⟩ => ⟨S_, .f32⟩
  | .hbm, ⟨30, _⟩ => ⟨S20000x256, .f32⟩
  | .hbm, ⟨31, _⟩ => ⟨S320000x1, .i32⟩
  | .hbm, ⟨32, _⟩ => ⟨S20000x256, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S20000x256, .f32⟩
  | .hbm, ⟨37, _⟩ => ⟨S20000x256, .f32⟩
  | .hbm, ⟨38, _⟩ => ⟨S20000x256, .f32⟩
  | .hbm, ⟨39, _⟩ => ⟨S1x512, .f32⟩
  | .hbm, ⟨40, _⟩ => ⟨S1x256, .f32⟩
  | .hbm, ⟨41, _⟩ => ⟨S20000x256, .f32⟩
  | .local _ .vmem, ⟨0, _⟩ => ⟨S3200x256, .f32⟩
  | .local _ .vmem, ⟨1, _⟩ => ⟨S3200x256, .f32⟩
  | .local _ .vmem, ⟨2, _⟩ => ⟨S256x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S3200x256, .f32⟩
  | .local _ .vmem, ⟨7, _⟩ => ⟨S3200x256, .f32⟩
  | .local _ .vmem, ⟨8, _⟩ => ⟨S4000x256, .f32⟩
  | .local _ .vmem, ⟨9, _⟩ => ⟨S4000x256, .f32⟩
  | .local _ .vmem, ⟨10, _⟩ => ⟨S256x512, .f32⟩
  | .local _ .vmem, ⟨11, _⟩ => ⟨S1x512, .f32⟩
  | .local _ .vmem, ⟨12, _⟩ => ⟨S512x256, .f32⟩
  | .local _ .vmem, ⟨13, _⟩ => ⟨S1x256, .f32⟩
  | .local _ .vmem, ⟨14, _⟩ => ⟨S4000x256, .f32⟩
  | .local _ .vmem, ⟨15, _⟩ => ⟨S4000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_cst : Ref sig .tc := ⟨.hbm, 26, rfl⟩
abbrev main_call0_v0 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S512_S1x512 : S512.ShapeCasts S1x512
  shapeCasts_S256_S1x256 : S256.ShapeCasts S1x256
  inb_S3200x256_S3200x256_0_0 : ∀ a, (![0, 0] : Fin 2 → Nat) a + S3200x256.size a ≤ S3200x256.size a
  h_S3200x256 : 0 < S3200x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S3200x512 : S1x512.Broadcasts S3200x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  bcast_S_S320000 : S_.BroadcastsInDim S320000 (![] : Fin 0 → Fin S320000.rank)
  bcast_S320000_S320000x1_0 : S320000.BroadcastsInDim S320000x1 (![0] : Fin 1 → Fin S320000x1.rank)
  bcast_S_S320000x256 : S_.BroadcastsInDim S320000x256 (![] : Fin 0 → Fin S320000x256.rank)
  bcast_S_S20000x256 : S_.BroadcastsInDim S20000x256 (![] : Fin 0 → Fin S20000x256.rank)
  shapeCasts_S1_S_ : S1.ShapeCasts S_
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S1x512_S4000x512 : S1x512.Broadcasts S4000x512
  broadcasts_S1x256_S4000x256 : S1x256.Broadcasts S4000x256
  dot_S3200x256_S256x512_S3200x512_1_0_0_1_n_n_wf : DotDims.WF S3200x256 S256x512 S3200x512 [1] [0] [0] [1] [] []
  dot_S3200x512_S512x256_S3200x256_1_0_0_1_n_n_wf : DotDims.WF S3200x512 S512x256 S3200x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S4000x256_S256x512_S4000x512_1_0_0_1_n_n_wf : DotDims.WF S4000x256 S256x512 S4000x512 [1] [0] [0] [1] [] []
  dot_S4000x512_S512x256_S4000x256_1_0_0_1_n_n_wf : DotDims.WF S4000x512 S512x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S320000x256.size a
  hwx0_0 : ∀ i : grid0.Coords, EltTy.bits .f32 = 32 ∨ (Rect.block (s := S320000x256) S3200x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x256.size a ≤ S320000x256.size a
  hwx0_5 : ∀ i : grid0.Coords, EltTy.bits .f32 = 32 ∨ (Rect.block (s := S320000x256) S3200x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S20000x256.size a
  hwx1_0 : ∀ i : grid1.Coords, EltTy.bits .f32 = 32 ∨ (Rect.block (s := S20000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S20000x256.size a
  hwx1_5 : ∀ i : grid1.Coords, EltTy.bits .f32 = 32 ∨ (Rect.block (s := S20000x256) S4000x256.size (cc1_transform_5 i) (hinb1_5 i)).WholeWords (EltTy.packing .f32)

variable [Facts₀]

def dot_S3200x256_S256x512_S3200x512_1_0_0_1_n_n : DotDims S3200x256 S256x512 S3200x512 where
  lhsContracting := [1]
  rhsContracting := [0]
  lhsNonContracting := [0]
  rhsNonContracting := [1]
  lhsBatch := []
  rhsBatch := []
  wf := dot_S3200x256_S256x512_S3200x512_1_0_0_1_n_n_wf
def dot_S3200x512_S512x256_S3200x256_1_0_0_1_n_n : DotDims S3200x512 S512x256 S3200x256 where
  lhsContracting := [1]
  rhsContracting := [0]
  lhsNonContracting := [0]
  rhsNonContracting := [1]
  lhsBatch := []
  rhsBatch := []
  wf := dot_S3200x512_S512x256_S3200x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf
def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf

abbrev win0_0 : Pipeline.Window sig grid0 :=
  Pipeline.Window.ofSpec (Memref.whole main_arg1) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S3200x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x256 : Shape := ⟨2, ![20000, 256]⟩
abbrev S320000x256 : Shape := ⟨2, ![320000, 256]⟩
abbrev S320000 : Shape := ⟨1, ![320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1 : Shape := ⟨1, ![1]⟩
abbrev S320000x512 : Shape := ⟨2, ![320000, 512]⟩
abbrev S1x512 : Shape := ⟨2, ![1, 512]⟩
abbrev S_ : Shape := ⟨0, ![]⟩
abbrev S1x256 : Shape := ⟨2, ![1, 256]⟩
abbrev S320000x1 : Shape := ⟨2, ![320000, 1]⟩
abbrev S20000x512 : Shape := ⟨2, ![20000, 512]⟩

abbrev nBuf : Space → Nat
  | .hbm => 58
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S1, .f32⟩
  | .hbm, ⟨13, _⟩ => ⟨S320000x512, .f32⟩
  | .hbm, ⟨14, _⟩ => ⟨S1x512, .f32⟩
  | .hbm, ⟨15, _⟩ => ⟨S320000x512, .f32⟩
  | .hbm, ⟨16, _⟩ => ⟨S320000x512, .f32⟩
  | .hbm, ⟨17, _⟩ => ⟨S_, .f32⟩
  | .hbm, ⟨18, _⟩ => ⟨S320000x512, .f32⟩
  | .hbm, ⟨19, _⟩ => ⟨S320000x512, .f32⟩
  | .hbm, ⟨20, _⟩ => ⟨S320000x256, .f32⟩
  | .hbm, ⟨21, _⟩ => ⟨S1x256, .f32⟩
  | .hbm, ⟨22, _⟩ => ⟨S320000x256, .f32⟩
  | .hbm, ⟨23, _⟩ => ⟨S320000x256, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S320000x256, .f32⟩
  | .hbm, ⟨34, _⟩ => ⟨S_, .f32⟩
  | .hbm, ⟨35, _⟩ => ⟨S320000x256, .f32⟩
  | .hbm, ⟨36, _⟩ => ⟨S320000x256, .f32⟩
  | .hbm, ⟨37, _⟩ => ⟨S_, .f32⟩
  | .hbm, ⟨38, _⟩ => ⟨S20000x256, .f32⟩
  | .hbm, ⟨39, _⟩ => ⟨S320000x1, .i32⟩
  | .hbm, ⟨40, _⟩ => ⟨S20000x256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S20000x256, .f32⟩
  | .hbm, ⟨45, _⟩ => ⟨S20000x256, .f32⟩
  | .hbm, ⟨46, _⟩ => ⟨S20000x256, .f32⟩
  | .hbm, ⟨47, _⟩ => ⟨S20000x512, .f32⟩
  | .hbm, ⟨48, _⟩ => ⟨S1x512, .f32⟩
  | .hbm, ⟨49, _⟩ => ⟨S20000x512, .f32⟩
  | .hbm, ⟨50, _⟩ => ⟨S20000x512, .f32⟩
  | .hbm, ⟨51, _⟩ => ⟨S_, .f32⟩
  | .hbm, ⟨52, _⟩ => ⟨S20000x512, .f32⟩
  | .hbm, ⟨53, _⟩ => ⟨S20000x512, .f32⟩
  | .hbm, ⟨54, _⟩ => ⟨S20000x256, .f32⟩
  | .hbm, ⟨55, _⟩ => ⟨S1x256, .f32⟩
  | .hbm, ⟨56, _⟩ => ⟨S20000x256, .f32⟩
  | .hbm, ⟨57, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_cst : Ref sig .tc := ⟨.hbm, 34, rfl⟩
abbrev main_call1_v0 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call2_cst : Ref sig .tc := ⟨.hbm, 51, rfl⟩
abbrev main_call2_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x256 : S_.BroadcastsInDim S320000x256 (![] : Fin 0 → Fin S320000x256.rank)
  bcast_S_S20000x256 : S_.BroadcastsInDim S20000x256 (![] : Fin 0 → Fin S20000x256.rank)
  shapeCasts_S1_S_ : S1.ShapeCasts S_
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S1x256_S20000x256_0_1 : S1x256.BroadcastsInDim S20000x256 (![0, 1] : Fin 2 → Fin S20000x256.rank)
  dot_S320000x256_S256x512_S320000x512_1_0_0_1_n_n_wf : DotDims.WF S320000x256 S256x512 S320000x512 [1] [0] [0] [1] [] []
  dot_S320000x512_S512x256_S320000x256_1_0_0_1_n_n_wf : DotDims.WF S320000x512 S512x256 S320000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x512_S20000x512_1_0_0_1_n_n_wf : DotDims.WF S20000x256 S256x512 S20000x512 [1] [0] [0] [1] [] []
  dot_S20000x512_S512x256_S20000x256_1_0_0_1_n_n_wf : DotDims.WF S20000x512 S512x256 S20000x256 [1] [0] [0] [1] [] []

variable [Facts₀]

def dot_S320000x256_S256x512_S320000x512_1_0_0_1_n_n : DotDims S320000x256 S256x512 S320000x512 where
  lhsContracting := [1]
  rhsContracting := [0]
  lhsNonContracting := [0]
  rhsNonContracting := [1]
  lhsBatch := []
  rhsBatch := []
  wf := dot_S320000x256_S256x512_S320000x512_1_0_0_1_n_n_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf

class Facts : Prop extends Facts₀ where

variable [Facts]
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.MlpRow.lean ====
/-
  One row of a two-layer perceptron over the extended reals.

  For a row `x` of `d` features, weights `W1 : d × h`, `W2 : h × o` and biases `b1`, `b2`, hidden unit `k` holds
  `max (Σ_j x j · W1 j k + b1 k) z` and output `q` holds `Σ_k hidden k · W2 k q + b2 q`, every sum and product the exact
  one of the extended reals.  The rectifier's floor `z` is kept as the float word both programs print for it (the zero
  word); it is the same on both sides and is never evaluated.

  An output row depends on its own input row only: that is why a matrix of rows may be cut into blocks of rows, each block
  mapped by itself, without changing any entry.
-/
import Idealize.ShloMosaic.PureOps.Ideal
import Idealize.ShloMosaic.Lib.ValueIdx

noncomputable section

namespace Cert.Mlp

open Idealize.ShloMosaic

/-- Hidden unit `k` of the row `x`: the affine form `x · W1 + b1` at `k`, cut off below at the printed zero word. -/
def hidden {d h : ℕ} (x : Fin d → EReal) (W1 : Fin d → Fin h → EReal) (b1 : Fin h → EReal) (k : Fin h) : EReal :=
  max ((∑ j : Fin d, x j * W1 j k) + b1 k) (Ideal.ofBits .f32 0x00000000#32)

/-- Output `q` of the row `x`: the hidden units' affine form `hidden · W2 + b2` at `q`. -/
def row {d h o : ℕ} (x : Fin d → EReal) (W1 : Fin d → Fin h → EReal) (b1 : Fin h → EReal)
    (W2 : Fin h → Fin o → EReal) (b2 : Fin o → EReal) (q : Fin o) : EReal :=
  (∑ k : Fin h, hidden x W1 b1 k * W2 k q) + b2 q

/-- The row function depends on its six arguments only through their values. -/
theorem row_congr {d h o : ℕ} {x x' : Fin d → EReal} {W1 W1' : Fin d → Fin h → EReal} {b1 b1' : Fin h → EReal}
    {W2 W2' : Fin h → Fin o → EReal} {b2 b2' : Fin o → EReal} {q q' : Fin o}
    (hx : ∀ j, x j = x' j) (h1 : ∀ j k, W1 j k = W1' j k) (hb1 : ∀ k, b1 k = b1' k)
    (h2 : ∀ k q, W2 k q = W2' k q) (hb2 : ∀ q, b2 q = b2' q) (hq : q = q') :
    row x W1 b1 W2 b2 q = row x' W1' b1' W2' b2' q' := by
  obtain rfl : x = x' := funext hx
  obtain rfl : W1 = W1' := funext fun j => funext (h1 j)
  obtain rfl : b1 = b1' := funext hb1
  obtain rfl : W2 = W2' := funext fun k => funext (h2 k)
  obtain rfl : b2 = b2' := funext hb2
  subst hq
  rfl

end Cert.Mlp

end
-- ==== Proof.KernelRows.lean ====
/-
  What each kernel body computes, read at an entry.

  Both bodies are the same program on blocks of different heights (3200 rows of edge features, 4000 rows of node
  features): cast to the narrower float format (the identity on extended reals), multiply by `W1` into a zero accumulator,
  add the bias row broadcast down the block, cut off at zero, cast, multiply by `W2` into a zero accumulator, add the second
  bias row.  At entry `(p, q)` of the block that is the perceptron row function of the block's row `p`, at `q`.
-/
import proofs.«144472_j88845693485603_1_alg».proof.Proof.Gen.KernelIdeal.Skeleton
import proofs.«144472_j88845693485603_1_alg».proof.Proof.LibPlainProduct
import proofs.«144472_j88845693485603_1_alg».proof.Proof.LibRowsProduct
import proofs.«144472_j88845693485603_1_alg».proof.Proof.MlpRow

noncomputable section

namespace Cert.KernelIdeal.Rows

open Cert.KernelIdeal Cert.KernelIdeal.Gen Idealize.ShloMosaic Idealize.ShloMosaic.ValueIdx

/-- The edge body's stored value at `(p, q)` is the perceptron of row `p` of its block of edge features. -/
theorem edge_payload (x0 : Vec Ideal S3200x256 .f32) (x1 : Vec Ideal S256x512 .f32) (x2 : Vec Ideal S1x512 .f32)
    (x3 : Vec Ideal S512x256 .f32) (x4 : Vec Ideal S1x256 .f32) (p : Fin 3200) (q : Fin 256) :
    k0_pay1 (F := Ideal) x0 x1 x2 x3 x4 (ix2 p q)
      = Cert.Mlp.row (fun j => x0 (ix2 p j)) (fun j k => x1 (ix2 j k)) (fun k => x2 (ix2 (0 : Fin 1) k))
          (fun k q => x3 (ix2 k q)) (fun q => x4 (ix2 (0 : Fin 1) q)) q := by
  unfold k0_pay1 Cert.Mlp.row Cert.Mlp.hidden
  simp only [shapeCast_self]
  rw [addf_apply, Cert.RowsProduct.broadcastTo_1n_an_apply]
  refine congrArg (fun s => s + x4 (ix2 (0 : Fin 1) q)) ?_
  refine (Cert.PlainProduct.matmul_nn_apply Facts₀.dot_S3200x512_S512x256_S3200x256_1_0_0_1_n_n_wf none _ _ p q).trans ?_
  refine Finset.sum_congr rfl fun k _ => ?_
  refine congrArg (fun s => s * x3 (ix2 k q)) ?_
  rw [truncf_apply, maximumf_apply, addf_apply, Cert.RowsProduct.broadcastTo_1n_an_apply, broadcast_apply]
  refine congrArg (fun s => max (s + x2 (ix2 (0 : Fin 1) k)) (Ideal.ofBits .f32 0x00000000#32)) ?_
  exact Cert.PlainProduct.matmul_nn_apply Facts₀.dot_S3200x256_S256x512_S3200x512_1_0_0_1_n_n_wf none _ _ p k

/-- The node body's stored value at `(p, q)` is the perceptron of row `p` of its block of combined node features (the
    body first re-lays its block in the same shape, which changes nothing). -/
theorem node_payload (x0 : Vec Ideal S4000x256 .f32) (x1 : Vec Ideal S256x512 .f32) (x2 : Vec Ideal S1x512 .f32)
    (x3 : Vec Ideal S512x256 .f32) (x4 : Vec Ideal S1x256 .f32) (p : Fin 4000) (q : Fin 256) :
    k1_pay1 (F := Ideal) x0 x1 x2 x3 x4 (ix2 p q)
      = Cert.Mlp.row (fun j => x0 (ix2 p j)) (fun j k => x1 (ix2 j k)) (fun k => x2 (ix2 (0 : Fin 1) k))
          (fun k q => x3 (ix2 k q)) (fun q => x4 (ix2 (0 : Fin 1) q)) q := by
  unfold k1_pay1 Cert.Mlp.row Cert.Mlp.hidden
  simp only [shapeCast_self]
  rw [addf_apply, Cert.RowsProduct.broadcastTo_1n_an_apply]
  refine congrArg (fun s => s + x4 (ix2 (0 : Fin 1) q)) ?_
  refine (Cert.PlainProduct.matmul_nn_apply Facts₀.dot_S4000x512_S512x256_S4000x256_1_0_0_1_n_n_wf none _ _ p q).trans ?_
  refine Finset.sum_congr rfl fun k _ => ?_
  refine congrArg (fun s => s * x3 (ix2 k q)) ?_
  rw [truncf_apply, maximumf_apply, addf_apply, Cert.RowsProduct.broadcastTo_1n_an_apply, broadcast_apply]
  refine congrArg (fun s => max (s + x2 (ix2 (0 : Fin 1) k)) (Ideal.ofBits .f32 0x00000000#32)) ?_
  exact Cert.PlainProduct.matmul_nn_apply Facts₀.dot_S4000x256_S256x512_S4000x512_1_0_0_1_n_n_wf none _ _ p k

end Cert.KernelIdeal.Rows

end
-- ==== Proof.KernelBlocks.lean ====
/-
  From blocks of rows to whole matrices.

  Each launch cuts its row matrix into blocks of consecutive rows (100 blocks of 3200 edge rows; 5 blocks of 4000 node
  rows), hands every grid point the whole weight and bias arrays, and writes the point's block of results back where
  the block of inputs came from.  Since a perceptron's output row depends on its own input row only, block `t` of the
  results is block `t` of "the perceptron applied to every row of the matrix", and as the blocks tile the matrix the
  array ends holding exactly that.
-/
import proofs.«144472_j88845693485603_1_alg».proof.Proof.Gen.KernelIdeal.Frame
import proofs.«144472_j88845693485603_1_alg».proof.Proof.KernelRows
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The perceptron applied to every row of an `n × 256` matrix `X`: entry `(r, q)` is the row function of row `r` at
    `q`.  The bias rows are read in the `1 × h` layout the launches are handed them in. -/
def perceptron {n : ℕ} (X : (⟨2, ![n, 256]⟩ : Shape).Idx → EReal) (W1 : (⟨2, ![256, 512]⟩ : Shape).Idx → EReal)
    (b1 : (⟨2, ![1, 512]⟩ : Shape).Idx → EReal) (W2 : (⟨2, ![512, 256]⟩ : Shape).Idx → EReal)
    (b2 : (⟨2, ![1, 256]⟩ : Shape).Idx → EReal) : (⟨2, ![n, 256]⟩ : Shape).Idx → EReal :=
  fun i => Cert.Mlp.row (fun j => X (ix2 (n0 := n) (n1 := 256) (i 0) j)) (fun j k => W1 (ix2 j k))
    (fun k => b1 (ix2 (0 : Fin 1) k)) (fun k q => W2 (ix2 k q)) (fun q => b2 (ix2 (0 : Fin 1) q)) (i 1)

theorem hz : (![0, 0] : Fin 2 → Nat) = fun _ => 0 := funext fun a => by fin_cases a <;> rfl

variable (V : (c : Dev nD) → (b : Ref sig .tc) → Buf (Elt Ideal) ((c : Thread nD τ).loc b))

/-! ## The edge launch -/

/-- The printed index maps over the grid: the row blocks of the input and of the output move together, one block per
    point, and every other window stays on its one block. -/
theorem edge_idx : ∀ t : Fin cfg0.N, win0_0.index t (0 : Fin 2) = win0_5.index t (0 : Fin 2)
    ∧ win0_0.index t (1 : Fin 2) = 0 ∧ win0_5.index t (1 : Fin 2) = 0 ∧ win0_5.index t (0 : Fin 2) ≤ 99
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of rows is some point's. -/
theorem edge_onto : ∀ q0 : Fin 100, ∃ t : Fin cfg0.N, win0_5.index t = ![q0.val, 0] :=
  (by decide +kernel : ∀ q0 : Fin 100, ∃ t : Fin grid0.N, win0_5.index t = ![q0.val, 0])

/-- What point `t` writes back is block `t` of the perceptron of the arrays the launch is entered with: row `p` of the
    point's input block is row `index · 3200 + p` of the matrix, which is the row its output lands on, and the weight and
    bias blocks are the whole arrays. -/
theorem edge_flushed (c : Dev nD) (t : Fin cfg0.N) :
    (dat0 V c).flushed 5 t = ((cfg0.win 5).blk t).view.read (Elt Ideal)
      (perceptron (V c main_arg1) (V c main_arg4) (V c main_v0) (V c main_arg6) (V c main_v1)) := by
  show (cfg0.win 5).cut (grid0.coords t) ((dat0 V c).after 5 t) = _
  rw [after0_5]
  unfold out0_5
  rw [View.canon_unit_zero hz]
  simp only [View.ld_unit_zero (S := S3200x256) hz, View.ld_unit_zero (S := S256x512) hz, View.ld_unit_zero (S := S1x512) hz,
    View.ld_unit_zero (S := S512x256) hz, View.ld_unit_zero (S := S1x256) hz]
  obtain ⟨e0, e1, e2, e3, e4, e5, e6, e7, e8, e9, e10, e11⟩ := edge_idx t
  funext j
  refine (congrArg (k0_pay1 (F := Ideal) (iblk0 V c 0 t) (iblk0 V c 1 t) (iblk0 V c 2 t) (iblk0 V c 3 t) (iblk0 V c 4 t))
    (eq_ix2 (n0 := 3200) (n1 := 256) j)).trans ?_
  refine (Rows.edge_payload (iblk0 V c 0 t) (iblk0 V c 1 t) (iblk0 V c 2 t) (iblk0 V c 3 t) (iblk0 V c 4 t) (j 0) (j 1)).trans ?_
  show _ = perceptron (V c main_arg1) (V c main_arg4) (V c main_v0) (V c main_arg6) (V c main_v1) (((cfg0.win 5).blk t).view.emb j)
  unfold perceptron
  refine Cert.Mlp.row_congr (fun jj => ?_) (fun jj k => ?_) (fun k => ?_) (fun k q => ?_) (fun q => ?_) ?_
  · show V c main_arg1 (((cfg0.win 0).blk t).view.emb (ix2 (j 0) jj)) = V c main_arg1 (ix2 ((((cfg0.win 5).blk t).view.emb j) 0) jj)
    refine congrArg (V c main_arg1) (funext fun a => Fin.ext ?_)
    match a with
    | ⟨0, _⟩ => show win0_0.index t (0 : Fin 2) * 3200 + 1 * (j 0).val = win0_5.index t (0 : Fin 2) * 3200 + 1 * (j 0).val; omega
    | ⟨1, _⟩ => show win0_0.index t (1 : Fin 2) * 256 + 1 * jj.val = jj.val; omega
  · show V c main_arg4 (((cfg0.win 1).blk t).view.emb (ix2 jj k)) = V c main_arg4 (ix2 jj k)
    refine congrArg (V c main_arg4) (funext fun a => Fin.ext ?_)
    match a with
    | ⟨0, _⟩ => show win0_1.index t (0 : Fin 2) * 256 + 1 * jj.val = jj.val; omega
    | ⟨1, _⟩ => show win0_1.index t (1 : Fin 2) * 512 + 1 * k.val = k.val; omega
  · show V c main_v0 (((cfg0.win 2).blk t).view.emb (ix2 (0 : Fin 1) k)) = V c main_v0 (ix2 (0 : Fin 1) k)
    refine congrArg (V c main_v0) (funext fun a => Fin.ext ?_)
    match a with
    | ⟨0, _⟩ => show win0_2.index t (0 : Fin 2) * 1 + 1 * 0 = 0; omega
    | ⟨1, _⟩ => show win0_2.index t (1 : Fin 2) * 512 + 1 * k.val = k.val; omega
  · show V c main_arg6 (((cfg0.win 3).blk t).view.emb (ix2 k q)) = V c main_arg6 (ix2 k q)
    refine congrArg (V c main_arg6) (funext fun a => Fin.ext ?_)
    match a with
    | ⟨0, _⟩ => show win0_3.index t (0 : Fin 2) * 512 + 1 * k.val = k.val; omega
    | ⟨1, _⟩ => show win0_3.index t (1 : Fin 2) * 256 + 1 * q.val = q.val; omega
  · show V c main_v1 (((cfg0.win 4).blk t).view.emb (ix2 (0 : Fin 1) q)) = V c main_v1 (ix2 (0 : Fin 1) q)
    refine congrArg (V c main_v1) (funext fun a => Fin.ext ?_)
    match a with
    | ⟨0, _⟩ => show win0_4.index t (0 : Fin 2) * 1 + 1 * 0 = 0; omega
    | ⟨1, _⟩ => show win0_4.index t (1 : Fin 2) * 256 + 1 * q.val = q.val; omega
  · refine Fin.ext ?_
    show (j 1).val = win0_5.index t (1 : Fin 2) * 256 + 1 * (j 1).val
    omega

/-- An index of the result matrix is in point `t`'s block iff each coordinate is in the block's range on its axis. -/
theorem edge_mem_blk (t : Fin cfg0.N) (i : S320000x256.Idx) :
    i ∈ ((cfg0.win 5).blk t).view.set ↔ ∀ a : Fin 2, win0_5.index t a * S3200x256.size a ≤ (i a).val
      ∧ (i a).val < win0_5.index t a * S3200x256.size a + S3200x256.size a := by
  show i ∈ ((View.whole main_v2).slice (win0_5.rect t)).set ↔ _
  rw [View.set_slice_whole, Rect.mem_set_unit]
  exact Iff.rfl

/-- The blocks of rows tile the matrix: row `r` lies in the block of the point whose block index is `r / 3200`. -/
theorem edge_cover (i : S320000x256.Idx) :
    ∃ t : Fin cfg0.N, (cfg0.win 5).flush t = true ∧ i ∈ ((cfg0.win 5).blk t).view.set := by
  have hi0 : (i 0).val < 320000 := (i 0).isLt
  have hi1 : (i 1).val < 256 := (i 1).isLt
  obtain ⟨t, ht⟩ := edge_onto ⟨(i 0).val / 3200, by omega⟩
  have q0 : win0_5.index t (0 : Fin 2) = (i 0).val / 3200 := congrFun ht 0
  have q1 : win0_5.index t (1 : Fin 2) = 0 := congrFun ht 1
  refine ⟨t, flush0_5 t, ?_⟩
  rw [edge_mem_blk]
  intro a
  match a with
  | ⟨0, _⟩ => show win0_5.index t (0 : Fin 2) * 3200 ≤ (i 0).val ∧ (i 0).val < win0_5.index t (0 : Fin 2) * 3200 + 3200; omega
  | ⟨1, _⟩ => show win0_5.index t (1 : Fin 2) * 256 ≤ (i 1).val ∧ (i 1).val < win0_5.index t (1 : Fin 2) * 256 + 256; omega

/-- After the launch its result array holds the perceptron of every row of the matrix it was entered with. -/
theorem edge_final (c : Dev nD) :
    (dat0 V c).arrAt 5 cfg0.N = perceptron (V c main_arg1) (V c main_arg4) (V c main_v0) (V c main_arg6) (V c main_v1) :=
  (dat0 V c).arrAt_eq_of_cover 5 _ (fun t _ => edge_flushed V c t) edge_cover

/-! ## The node launch -/

/-- The printed index maps over the grid: the row blocks of the input and of the output move together, one block per
    point, and every other window stays on its one block. -/
theorem node_idx : ∀ t : Fin cfg1.N, win1_0.index t (0 : Fin 2) = win1_5.index t (0 : Fin 2)
    ∧ win1_0.index t (1 : Fin 2) = 0 ∧ win1_5.index t (1 : Fin 2) = 0 ∧ win1_5.index t (0 : Fin 2) ≤ 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every block of rows is some point's. -/
theorem node_onto : ∀ q0 : Fin 5, ∃ t : Fin cfg1.N, win1_5.index t = ![q0.val, 0] :=
  (by decide +kernel : ∀ q0 : Fin 5, ∃ t : Fin grid1.N, win1_5.index t = ![q0.val, 0])

/-- What point `t` writes back is block `t` of the perceptron of the arrays the launch is entered with: row `p` of the
    point's input block is row `index · 4000 + p` of the matrix, which is the row its output lands on, and the weight and
    bias blocks are the whole arrays. -/
theorem node_flushed (c : Dev nD) (t : Fin cfg1.N) :
    (dat1 V c).flushed 5 t = ((cfg1.win 5).blk t).view.read (Elt Ideal)
      (perceptron (V c main_v19) (V c main_arg8) (V c main_v20) (V c main_arg10) (V c main_v21)) := by
  show (cfg1.win 5).cut (grid1.coords t) ((dat1 V c).after 5 t) = _
  rw [after1_5]
  unfold out1_5
  rw [View.canon_unit_zero hz]
  simp only [View.ld_unit_zero (S := S4000x256) hz, View.ld_unit_zero (S := S256x512) hz, View.ld_unit_zero (S := S1x512) hz,
    View.ld_unit_zero (S := S512x256) hz, View.ld_unit_zero (S := S1x256) hz]
  obtain ⟨e0, e1, e2, e3, e4, e5, e6, e7, e8, e9, e10, e11⟩ := node_idx t
  funext j
  refine (congrArg (k1_pay1 (F := Ideal) (iblk1 V c 0 t) (iblk1 V c 1 t) (iblk1 V c 2 t) (iblk1 V c 3 t) (iblk1 V c 4 t))
    (eq_ix2 (n0 := 4000) (n1 := 256) j)).trans ?_
  refine (Rows.node_payload (iblk1 V c 0 t) (iblk1 V c 1 t) (iblk1 V c 2 t) (iblk1 V c 3 t) (iblk1 V c 4 t) (j 0) (j 1)).trans ?_
  show _ = perceptron (V c main_v19) (V c main_arg8) (V c main_v20) (V c main_arg10) (V c main_v21) (((cfg1.win 5).blk t).view.emb j)
  unfold perceptron
  refine Cert.Mlp.row_congr (fun jj => ?_) (fun jj k => ?_) (fun k => ?_) (fun k q => ?_) (fun q => ?_) ?_
  · show V c main_v19 (((cfg1.win 0).blk t).view.emb (ix2 (j 0) jj)) = V c main_v19 (ix2 ((((cfg1.win 5).blk t).view.emb j) 0) jj)
    refine congrArg (V c main_v19) (funext fun a => Fin.ext ?_)
    match a with
    | ⟨0, _⟩ => show win1_0.index t (0 : Fin 2) * 4000 + 1 * (j 0).val = win1_5.index t (0 : Fin 2) * 4000 + 1 * (j 0).val; omega
    | ⟨1, _⟩ => show win1_0.index t (1 : Fin 2) * 256 + 1 * jj.val = jj.val; omega
  · show V c main_arg8 (((cfg1.win 1).blk t).view.emb (ix2 jj k)) = V c main_arg8 (ix2 jj k)
    refine congrArg (V c main_arg8) (funext fun a => Fin.ext ?_)
    match a with
    | ⟨0, _⟩ => show win1_1.index t (0 : Fin 2) * 256 + 1 * jj.val = jj.val; omega
    | ⟨1, _⟩ => show win1_1.index t (1 : Fin 2) * 512 + 1 * k.val = k.val; omega
  · show V c main_v20 (((cfg1.win 2).blk t).view.emb (ix2 (0 : Fin 1) k)) = V c main_v20 (ix2 (0 : Fin 1) k)
    refine congrArg (V c main_v20) (funext fun a => Fin.ext ?_)
    match a with
    | ⟨0, _⟩ => show win1_2.index t (0 : Fin 2) * 1 + 1 * 0 = 0; omega
    | ⟨1, _⟩ => show win1_2.index t (1 : Fin 2) * 512 + 1 * k.val = k.val; omega
  · show V c main_arg10 (((cfg1.win 3).blk t).view.emb (ix2 k q)) = V c main_arg10 (ix2 k q)
    refine congrArg (V c main_arg10) (funext fun a => Fin.ext ?_)
    match a with
    | ⟨0, _⟩ => show win1_3.index t (0 : Fin 2) * 512 + 1 * k.val = k.val; omega
    | ⟨1, _⟩ => show win1_3.index t (1 : Fin 2) * 256 + 1 * q.val = q.val; omega
  · show V c main_v21 (((cfg1.win 4).blk t).view.emb (ix2 (0 : Fin 1) q)) = V c main_v21 (ix2 (0 : Fin 1) q)
    refine congrArg (V c main_v21) (funext fun a => Fin.ext ?_)
    match a with
    | ⟨0, _⟩ => show win1_4.index t (0 : Fin 2) * 1 + 1 * 0 = 0; omega
    | ⟨1, _⟩ => show win1_4.index t (1 : Fin 2) * 256 + 1 * q.val = q.val; omega
  · refine Fin.ext ?_
    show (j 1).val = win1_5.index t (1 : Fin 2) * 256 + 1 * (j 1).val
    omega

/-- An index of the result matrix is in point `t`'s block iff each coordinate is in the block's range on its axis. -/
theorem node_mem_blk (t : Fin cfg1.N) (i : S20000x256.Idx) :
    i ∈ ((cfg1.win 5).blk t).view.set ↔ ∀ a : Fin 2, win1_5.index t a * S4000x256.size a ≤ (i a).val
      ∧ (i a).val < win1_5.index t a * S4000x256.size a + S4000x256.size a := by
  show i ∈ ((View.whole main_v22).slice (win1_5.rect t)).set ↔ _
  rw [View.set_slice_whole, Rect.mem_set_unit]
  exact Iff.rfl

/-- The blocks of rows tile the matrix: row `r` lies in the block of the point whose block index is `r / 4000`. -/
theorem node_cover (i : S20000x256.Idx) :
    ∃ t : Fin cfg1.N, (cfg1.win 5).flush t = true ∧ i ∈ ((cfg1.win 5).blk t).view.set := by
  have hi0 : (i 0).val < 20000 := (i 0).isLt
  have hi1 : (i 1).val < 256 := (i 1).isLt
  obtain ⟨t, ht⟩ := node_onto ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [node_mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 256 ≤ (i 1).val ∧ (i 1).val < win1_5.index t (1 : Fin 2) * 256 + 256; omega

/-- After the launch its result array holds the perceptron of every row of the matrix it was entered with. -/
theorem node_final (c : Dev nD) :
    (dat1 V c).arrAt 5 cfg1.N = perceptron (V c main_v19) (V c main_arg8) (V c main_v20) (V c main_arg10) (V c main_v21) :=
  (dat1 V c).arrAt_eq_of_cover 5 _ (fun t _ => node_flushed V c t) node_cover

end Cert.KernelIdeal.Blocks

end
-- ==== Proof.Combine.lean ====
/-
  Between the two perceptrons: messages, their sums, and the combination with the node features.

  With `E` the edge perceptron's result, both programs form the message of edge `e` as `max (node[src e] + E e) 0` (the
  source index first normalised: a negative index is taken from the end), sum the messages of the edges arriving at
  each node into a zero matrix, and add `(1 + eps) · node`.  The two programs print this stretch operation for
  operation alike, so it is carried as ONE function `combine` of `E` and the four arguments it reads — never opened:
  the claim needs only that both programs apply the same function to equal `E`.
-/
import proofs.«144472_j88845693485603_1_alg».proof.Proof.Gen.ReferenceIdeal.Read

noncomputable section

namespace Cert.ReferenceIdeal.Combine

open Cert.ReferenceIdeal Cert.ReferenceIdeal.Gen Cert.ReferenceIdeal.Read Idealize.ShloMosaic

/-- The stretch between the perceptrons as a function of the edge perceptron's result `E`, the node features `x0`, the
    edges' sources `x2` and destinations `x3`, and `eps` (`x12`): `(1 + eps) · x0` plus, per destination, the sum of
    `max (x0[source] + E) 0` over its edges. -/
def combine (E : (⟨S320000x256, .f32⟩ : BufTy).Contents (Elt Ideal)) (x0 : (⟨S20000x256, .f32⟩ : BufTy).Contents (Elt Ideal))
    (x2 x3 : (⟨S320000, .i32⟩ : BufTy).Contents (Elt Ideal)) (x12 : (⟨S1, .f32⟩ : BufTy).Contents (Elt Ideal)) :
    (⟨S20000x256, .f32⟩ : BufTy).Contents (Elt Ideal) :=
  addf (φ := .f32) (val_main_v24 (F := Ideal) x0 x12)
    (Host.scatterAdd (F := Ideal) (φ := .f32) scatter_S20000x256_S320000x1_S320000x256_1_0_0_1 (val_main_v18 (F := Ideal))
      (val_main_v19 (F := Ideal) x3)
      (maximumf (φ := .f32) (addf (φ := .f32) (val_main_v15 (F := Ideal) x0 x2) E) (val_main_call1_v0 (F := Ideal))))

/-- What the reference feeds its node perceptron is `combine` of its edge perceptron's result. -/
theorem stage_eq (x0 : (⟨S20000x256, .f32⟩ : BufTy).Contents (Elt Ideal)) (x1 : (⟨S320000x256, .f32⟩ : BufTy).Contents (Elt Ideal))
    (x2 x3 : (⟨S320000, .i32⟩ : BufTy).Contents (Elt Ideal)) (x4 : (⟨S256x512, .f32⟩ : BufTy).Contents (Elt Ideal)) (x5 : (⟨S512, .f32⟩ : BufTy).Contents (Elt Ideal)) (x6 : (⟨S512x256, .f32⟩ : BufTy).Contents (Elt Ideal))
    (x7 : (⟨S256, .f32⟩ : BufTy).Contents (Elt Ideal)) (x12 : (⟨S1, .f32⟩ : BufTy).Contents (Elt Ideal)) :
    val_main_v25 (F := Ideal) x0 x1 x2 x3 x4 x5 x6 x7 x12
      = combine (val_main_v8 (F := Ideal) x1 x4 x5 x6 x7) x0 x2 x3 x12 := rfl

end Cert.ReferenceIdeal.Combine

end
-- ==== Proof.KernelRun.lean ====
/-
  The kernel program's run, with its result read back.

  The program is five stretches around two launches: re-lay the first two bias vectors as rows; the edge launch; the
  stretch between the perceptrons (three pieces as printed); re-lay the other two bias vectors; the node launch, whose
  result array is the program's result.  Buffer contents are followed from boundary to boundary: a host stretch leaves
  in each buffer its operations' value of what was there, a launch leaves in its result array the perceptron of every row
  of the matrix it was entered with and every other buffer as it was.  So the result is the node perceptron of
  `combine` of the edge perceptron of the edge features.
-/
import proofs.«144472_j88845693485603_1_alg».proof.Proof.Gen.KernelIdeal.Frame
import proofs.«144472_j88845693485603_1_alg».proof.Proof.KernelBlocks
import proofs.«144472_j88845693485603_1_alg».proof.Proof.Combine
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

local notation "𝕄" => MT nD τ sig Unit (Elt Ideal) ℕ (UR sig nD τ) ℕ

variable (m : (ℓ : Loc nD τ sig) → Buf (Elt Ideal) ℓ) (ρ : Dev nD → PrngReg)

/-! ## Before the edge launch: the arguments as launched, the two bias vectors re-laid as rows -/

theorem entry0_arg1 (c : Dev nD) : V1 m ρ c main_arg1 = m ((c : Thread nD τ).loc main_arg1) := by
  show StableHlo.after hostOps0 (W0 m ρ c) (Proc.devRef .tc main_arg1) = _
  dsimp only [hostOps0]
  after_results_simp <;> rfl

theorem entry0_arg4 (c : Dev nD) : V1 m ρ c main_arg4 = m ((c : Thread nD τ).loc main_arg4) := by
  show StableHlo.after hostOps0 (W0 m ρ c) (Proc.devRef .tc main_arg4) = _
  dsimp only [hostOps0]
  after_results_simp <;> rfl

theorem entry0_arg6 (c : Dev nD) : V1 m ρ c main_arg6 = m ((c : Thread nD τ).loc main_arg6) := by
  show StableHlo.after hostOps0 (W0 m ρ c) (Proc.devRef .tc main_arg6) = _
  dsimp only [hostOps0]
  after_results_simp <;> rfl

theorem entry0_bias1 (c : Dev nD) : V1 m ρ c main_v0 = shapeCast S1x512 (m ((c : Thread nD τ).loc main_arg5)) shapeCasts_S512_S1x512 := by
  show StableHlo.after hostOps0 (W0 m ρ c) (Proc.devRef .tc main_v0) = _
  dsimp only [hostOps0]
  after_results_simp <;> rfl

theorem entry0_bias2 (c : Dev nD) : V1 m ρ c main_v1 = shapeCast S1x256 (m ((c : Thread nD τ).loc main_arg7)) shapeCasts_S256_S1x256 := by
  show StableHlo.after hostOps0 (W0 m ρ c) (Proc.devRef .tc main_v1) = _
  dsimp only [hostOps0]
  after_results_simp <;> rfl

/-! ## After the edge launch -/

/-- The edge launch's result array: the perceptron of every row of the edge features. -/
theorem exit0_edges (c : Dev nD) :
    W2 m ρ c (Proc.devRef .tc main_v2)
      = Blocks.perceptron (m ((c : Thread nD τ).loc main_arg1)) (m ((c : Thread nD τ).loc main_arg4)) (shapeCast S1x512 (m ((c : Thread nD τ).loc main_arg5)) shapeCasts_S512_S1x512)
          (m ((c : Thread nD τ).loc main_arg6)) (shapeCast S1x256 (m ((c : Thread nD τ).loc main_arg7)) shapeCasts_S256_S1x256) := by
  refine (W2_arr m ρ c (5 : Fin cfg0.W)).trans ?_
  rw [Blocks.edge_final (V1 m ρ) c, entry0_arg1, entry0_arg4, entry0_bias1, entry0_arg6, entry0_bias2]

theorem exit0_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  dsimp only [hostOps0]
  after_results_simp <;> rfl

theorem exit0_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  dsimp only [hostOps0]
  after_results_simp <;> rfl

theorem exit0_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  dsimp only [hostOps0]
  after_results_simp <;> rfl

theorem exit0_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  dsimp only [hostOps0]
  after_results_simp <;> rfl

theorem exit0_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  dsimp only [hostOps0]
  after_results_simp <;> rfl

theorem exit0_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  dsimp only [hostOps0]
  after_results_simp <;> rfl

theorem exit0_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  dsimp only [hostOps0]
  after_results_simp <;> rfl

theorem exit0_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  dsimp only [hostOps0]
  after_results_simp <;> rfl

/-! ## Before the node launch -/

/-- The matrix the node launch is entered with: `combine` of the edge launch's result and the arguments. -/
theorem entry1_combined (c : Dev nD) :
    V5 m ρ c main_v19
      = Cert.ReferenceIdeal.Combine.combine (W2 m ρ c (Proc.devRef .tc main_v2)) (W2 m ρ c (Proc.devRef .tc main_arg0))
          (W2 m ρ c (Proc.devRef .tc main_arg2)) (W2 m ρ c (Proc.devRef .tc main_arg3)) (W2 m ρ c (Proc.devRef .tc main_arg12)) := by
  show StableHlo.after hostOps1_2 (StableHlo.after hostOps1_1 (StableHlo.after hostOps1 (W2 m ρ c))) (Proc.devRef .tc main_v19) = _
  dsimp only [hostOps1, hostOps1_1, hostOps1_2]
  after_results_simp <;> rfl

theorem entry1_arg8 (c : Dev nD) : V5 m ρ c main_arg8 = m ((c : Thread nD τ).loc main_arg8) := by
  refine Eq.trans ?_ (exit0_arg8 m ρ c)
  show StableHlo.after hostOps1_2 (StableHlo.after hostOps1_1 (StableHlo.after hostOps1 (W2 m ρ c))) (Proc.devRef .tc main_arg8) = _
  dsimp only [hostOps1, hostOps1_1, hostOps1_2]
  after_results_simp <;> rfl

theorem entry1_arg10 (c : Dev nD) : V5 m ρ c main_arg10 = m ((c : Thread nD τ).loc main_arg10) := by
  refine Eq.trans ?_ (exit0_arg10 m ρ c)
  show StableHlo.after hostOps1_2 (StableHlo.after hostOps1_1 (StableHlo.after hostOps1 (W2 m ρ c))) (Proc.devRef .tc main_arg10) = _
  dsimp only [hostOps1, hostOps1_1, hostOps1_2]
  after_results_simp <;> rfl

theorem entry1_bias1 (c : Dev nD) : V5 m ρ c main_v20 = shapeCast S1x512 (m ((c : Thread nD τ).loc main_arg9)) shapeCasts_S512_S1x512 := by
  refine Eq.trans ?_ (congrArg (fun x => shapeCast S1x512 x shapeCasts_S512_S1x512) (exit0_arg9 m ρ c))
  show StableHlo.after hostOps1_2 (StableHlo.after hostOps1_1 (StableHlo.after hostOps1 (W2 m ρ c))) (Proc.devRef .tc main_v20) = _
  dsimp only [hostOps1, hostOps1_1, hostOps1_2]
  after_results_simp <;> rfl

theorem entry1_bias2 (c : Dev nD) : V5 m ρ c main_v21 = shapeCast S1x256 (m ((c : Thread nD τ).loc main_arg11)) shapeCasts_S256_S1x256 := by
  refine Eq.trans ?_ (congrArg (fun x => shapeCast S1x256 x shapeCasts_S256_S1x256) (exit0_arg11 m ρ c))
  show StableHlo.after hostOps1_2 (StableHlo.after hostOps1_1 (StableHlo.after hostOps1 (W2 m ρ c))) (Proc.devRef .tc main_v21) = _
  dsimp only [hostOps1, hostOps1_1, hostOps1_2]
  after_results_simp <;> rfl

/-! ## The result -/

/-- The kernel program's result as one function of the launch contents of its arguments: the node perceptron of
    `combine` of the edge perceptron. -/
def result (c : Dev nD) : S20000x256.Idx → EReal :=
  Blocks.perceptron
    (Cert.ReferenceIdeal.Combine.combine
      (Blocks.perceptron (m ((c : Thread nD τ).loc main_arg1)) (m ((c : Thread nD τ).loc main_arg4)) (shapeCast S1x512 (m ((c : Thread nD τ).loc main_arg5)) shapeCasts_S512_S1x512)
        (m ((c : Thread nD τ).loc main_arg6)) (shapeCast S1x256 (m ((c : Thread nD τ).loc main_arg7)) shapeCasts_S256_S1x256))
      (m ((c : Thread nD τ).loc main_arg0)) (m ((c : Thread nD τ).loc main_arg2)) (m ((c : Thread nD τ).loc main_arg3)) (m ((c : Thread nD τ).loc main_arg12)))
    (m ((c : Thread nD τ).loc main_arg8)) (shapeCast S1x512 (m ((c : Thread nD τ).loc main_arg9)) shapeCasts_S512_S1x512)
    (m ((c : Thread nD τ).loc main_arg10)) (shapeCast S1x256 (m ((c : Thread nD τ).loc main_arg11)) shapeCasts_S256_S1x256)

/-- After the node launch the result array holds `result`. -/
theorem exit1_result (c : Dev nD) : W6 m ρ c (Proc.devRef .tc main_v22) = result m c := by
  refine (W6_arr m ρ c (5 : Fin cfg1.W)).trans ?_
  rw [Blocks.node_final (V5 m ρ) c, entry1_combined, exit0_edges, exit0_arg0, exit0_arg2, exit0_arg3, exit0_arg12,
    entry1_arg8, entry1_bias1, entry1_arg10, entry1_bias2]
  rfl

/-! ## The run -/

set_option backward.isDefEq.respectTransparency.types false in
/-- Every weakly fair execution of the kernel program terminates, nothing faulting, with the result array at `result` of
    the arguments' launch contents and the arguments unchanged: the launch over the program's six segments, with the result
    array read off the last boundary's contents beside the arguments. -/
theorem run : θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v22 (by decide))).trans (exit1_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Run

end
-- ==== Proof.ReferenceRows.lean ====
/-
  The reference's two perceptrons, read at an entry.

  The reference applies `relu (x · W1 + b1) · W2 + b2` to the whole matrix of edge features and later to the whole matrix
  of combined node features, each product a plain sum over the shared coordinate and each bias a vector laid along the
  rows.  Entry `(r, q)` of either result is the perceptron row function of row `r` of the matrix it is applied to.
-/
import proofs.«144472_j88845693485603_1_alg».proof.Proof.Gen.ReferenceIdeal.Read
import proofs.«144472_j88845693485603_1_alg».proof.Proof.MlpRow

noncomputable section

namespace Cert.ReferenceIdeal.Rows

open Cert.ReferenceIdeal Cert.ReferenceIdeal.Read Idealize.ShloMosaic Idealize.ShloMosaic.ValueIdx

/-- The reference's edge perceptron at `(r, q)`: the row function of row `r` of the edge features. -/
theorem edge_stage (x1 : (⟨S320000x256, .f32⟩ : BufTy).Contents (Elt Ideal)) (x4 : (⟨S256x512, .f32⟩ : BufTy).Contents (Elt Ideal)) (x5 : (⟨S512, .f32⟩ : BufTy).Contents (Elt Ideal)) (x6 : (⟨S512x256, .f32⟩ : BufTy).Contents (Elt Ideal)) (x7 : (⟨S256, .f32⟩ : BufTy).Contents (Elt Ideal)) (r : Fin 320000) (q : Fin 256) :
    val_main_v8 (F := Ideal) x1 x4 x5 x6 x7 (ix2 r q)
      = Cert.Mlp.row (fun j => x1 (ix2 r j)) (fun j k => x4 (ix2 j k)) (fun k => x5 (ix1 k))
          (fun k q => x6 (ix2 k q)) (fun q => x7 (ix1 q)) q := by
  rw [val_main_v8_apply, val_main_v5_apply, val_main_v7_apply, val_main_v6_apply]
  unfold Cert.Mlp.row
  refine congrArg₂ (fun a b : EReal => a + b) (Finset.sum_congr rfl fun k _ => ?_) ?_
  · have hl : lidx_main_v5 (ix2 r q) k = ix2 r k := funext fun a => by match a with | ⟨0, _⟩ => rfl | ⟨1, _⟩ => rfl
    have hr : ridx_main_v5 (ix2 r q) k = ix2 k q := funext fun a => by match a with | ⟨0, _⟩ => rfl | ⟨1, _⟩ => rfl
    rw [hl, hr, val_main_v4_apply, val_main_v3_apply, val_main_v0_apply, val_main_v2_apply, val_main_v1_apply, val_main_call0_v0_apply, val_main_call0_cst_apply]
    unfold Cert.Mlp.hidden
    refine congrArg (fun s : EReal => s * x6 (ix2 k q)) ?_
    refine congrArg₂ (fun a b : EReal => max a b) (congrArg₂ (fun a b : EReal => a + b) (Finset.sum_congr rfl fun j _ => ?_) ?_) rfl
    · have hl0 : lidx_main_v0 (ix2 r k) j = ix2 r j := funext fun a => by match a with | ⟨0, _⟩ => rfl | ⟨1, _⟩ => rfl
      have hr0 : ridx_main_v0 (ix2 r k) j = ix2 j k := funext fun a => by match a with | ⟨0, _⟩ => rfl | ⟨1, _⟩ => rfl
      rw [hl0, hr0]
    · exact congrArg x5 (funext fun a => by match a with | ⟨0, _⟩ => rfl)
  · exact congrArg x7 (funext fun a => by match a with | ⟨0, _⟩ => rfl)

/-- The reference's node perceptron at `(r, q)`: the row function of row `r` of the combined node features (the
    stage the reference feeds it, whatever that stage holds). -/
theorem node_stage (x0 : (⟨S20000x256, .f32⟩ : BufTy).Contents (Elt Ideal)) (x1 : (⟨S320000x256, .f32⟩ : BufTy).Contents (Elt Ideal)) (x2 x3 : (⟨S320000, .i32⟩ : BufTy).Contents (Elt Ideal)) (x4 : (⟨S256x512, .f32⟩ : BufTy).Contents (Elt Ideal)) (x5 : (⟨S512, .f32⟩ : BufTy).Contents (Elt Ideal)) (x6 : (⟨S512x256, .f32⟩ : BufTy).Contents (Elt Ideal)) (x7 : (⟨S256, .f32⟩ : BufTy).Contents (Elt Ideal)) (x8 : (⟨S256x512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (x12 : (⟨S1, .f32⟩ : BufTy).Contents (Elt Ideal)) (r : Fin 20000) (q : Fin 256) :
    val_main_v34 (F := Ideal) x0 x1 x2 x3 x4 x5 x6 x7 x8 x9 x10 x11 x12 (ix2 r q)
      = Cert.Mlp.row (fun j => val_main_v25 (F := Ideal) x0 x1 x2 x3 x4 x5 x6 x7 x12 (ix2 r j)) (fun j k => x8 (ix2 j k)) (fun k => x9 (ix1 k))
          (fun k q => x10 (ix2 k q)) (fun q => x11 (ix1 q)) q := by
  rw [val_main_v34_apply, val_main_v31_apply, val_main_v33_apply, val_main_v32_apply]
  unfold Cert.Mlp.row
  refine congrArg₂ (fun a b : EReal => a + b) (Finset.sum_congr rfl fun k _ => ?_) ?_
  · have hl : lidx_main_v31 (ix2 r q) k = ix2 r k := funext fun a => by match a with | ⟨0, _⟩ => rfl | ⟨1, _⟩ => rfl
    have hr : ridx_main_v31 (ix2 r q) k = ix2 k q := funext fun a => by match a with | ⟨0, _⟩ => rfl | ⟨1, _⟩ => rfl
    rw [hl, hr, val_main_v30_apply, val_main_v29_apply, val_main_v26_apply, val_main_v28_apply, val_main_v27_apply, val_main_call2_v0_apply, val_main_call2_cst_apply]
    unfold Cert.Mlp.hidden
    refine congrArg (fun s : EReal => s * x10 (ix2 k q)) ?_
    refine congrArg₂ (fun a b : EReal => max a b) (congrArg₂ (fun a b : EReal => a + b) (Finset.sum_congr rfl fun j _ => ?_) ?_) rfl
    · have hl0 : lidx_main_v26 (ix2 r k) j = ix2 r j := funext fun a => by match a with | ⟨0, _⟩ => rfl | ⟨1, _⟩ => rfl
      have hr0 : ridx_main_v26 (ix2 r k) j = ix2 j k := funext fun a => by match a with | ⟨0, _⟩ => rfl | ⟨1, _⟩ => rfl
      rw [hl0, hr0]
    · exact congrArg x9 (funext fun a => by match a with | ⟨0, _⟩ => rfl)
  · exact congrArg x11 (funext fun a => by match a with | ⟨0, _⟩ => rfl)

end Cert.ReferenceIdeal.Rows

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.Bridge.lean ====
/-
  The reference computes the same function.

  The reference's edge perceptron, read entry by entry, is the perceptron of every row of the edge features with the
  bias vectors read directly; the kernel program reads them through one-row re-layouts, which keep the entries in
  order.  The reference then applies `combine` to that result, and its node perceptron to the combined matrix: the
  kernel program's `result`, term for term.
-/
import proofs.«144472_j88845693485603_1_alg».proof.Proof.KernelBlocks
import proofs.«144472_j88845693485603_1_alg».proof.Proof.ReferenceRows
import proofs.«144472_j88845693485603_1_alg».proof.Proof.Combine
import proofs.«144472_j88845693485603_1_alg».proof.Proof.LibBroadcast

noncomputable section

namespace Cert.Bridge

open Idealize.ShloMosaic Idealize.ShloMosaic.ValueIdx
open Cert.ReferenceIdeal.Read Cert.ReferenceIdeal.Combine Cert.KernelIdeal.Blocks

/-- The reference's edge perceptron is the perceptron of every row of the edge features, its bias vectors laid as rows. -/
theorem edge_eq (x1 : (⟨Cert.ReferenceIdeal.S320000x256, .f32⟩ : BufTy).Contents (Elt Ideal)) (x4 : (⟨Cert.ReferenceIdeal.S256x512, .f32⟩ : BufTy).Contents (Elt Ideal)) (x5 : (⟨Cert.ReferenceIdeal.S512, .f32⟩ : BufTy).Contents (Elt Ideal)) (x6 : (⟨Cert.ReferenceIdeal.S512x256, .f32⟩ : BufTy).Contents (Elt Ideal)) (x7 : (⟨Cert.ReferenceIdeal.S256, .f32⟩ : BufTy).Contents (Elt Ideal))
    (h5 : Cert.KernelIdeal.S512.ShapeCasts Cert.KernelIdeal.S1x512) (h7 : Cert.KernelIdeal.S256.ShapeCasts Cert.KernelIdeal.S1x256) :
    val_main_v8 (F := Ideal) x1 x4 x5 x6 x7
      = perceptron (n := 320000) x1 x4 (shapeCast Cert.KernelIdeal.S1x512 x5 h5) x6 (shapeCast Cert.KernelIdeal.S1x256 x7 h7) := by
  funext i
  obtain ⟨r, q, rfl⟩ : ∃ (r : Fin 320000) (q : Fin 256), i = ix2 r q := ⟨i 0, i 1, eq_ix2 i⟩
  refine (Cert.ReferenceIdeal.Rows.edge_stage x1 x4 x5 x6 x7 r q).trans ?_
  refine Cert.Mlp.row_congr (fun _ => rfl) (fun _ _ => rfl) (fun k => ?_) (fun _ _ => rfl) (fun q => ?_) rfl
  · exact (Cert.Layout.shapeCast_row_apply x5 h5 k).symm
  · exact (Cert.Layout.shapeCast_row_apply x7 h7 q).symm

/-- The reference's result is the node perceptron of `combine` of the edge perceptron: the kernel program's function. -/
theorem result_eq (x0 : (⟨Cert.ReferenceIdeal.S20000x256, .f32⟩ : BufTy).Contents (Elt Ideal)) (x1 : (⟨Cert.ReferenceIdeal.S320000x256, .f32⟩ : BufTy).Contents (Elt Ideal))
    (x2 x3 : (⟨Cert.ReferenceIdeal.S320000, .i32⟩ : BufTy).Contents (Elt Ideal)) (x4 : (⟨Cert.ReferenceIdeal.S256x512, .f32⟩ : BufTy).Contents (Elt Ideal)) (x5 : (⟨Cert.ReferenceIdeal.S512, .f32⟩ : BufTy).Contents (Elt Ideal))
    (x6 : (⟨Cert.ReferenceIdeal.S512x256, .f32⟩ : BufTy).Contents (Elt Ideal)) (x7 : (⟨Cert.ReferenceIdeal.S256, .f32⟩ : BufTy).Contents (Elt Ideal)) (x8 : (⟨Cert.ReferenceIdeal.S256x512, .f32⟩ : BufTy).Contents (Elt Ideal)) (x9 : (⟨Cert.ReferenceIdeal.S512, .f32⟩ : BufTy).Contents (Elt Ideal)) (x10 : (⟨Cert.ReferenceIdeal.S512x256, .f32⟩ : BufTy).Contents (Elt Ideal)) (x11 : (⟨Cert.ReferenceIdeal.S256, .f32⟩ : BufTy).Contents (Elt Ideal)) (x12 : (⟨Cert.ReferenceIdeal.S1, .f32⟩ : BufTy).Contents (Elt Ideal))
    (h5 : Cert.KernelIdeal.S512.ShapeCasts Cert.KernelIdeal.S1x512) (h7 : Cert.KernelIdeal.S256.ShapeCasts Cert.KernelIdeal.S1x256) :
    val_main_v34 (F := Ideal) x0 x1 x2 x3 x4 x5 x6 x7 x8 x9 x10 x11 x12
      = perceptron (n := 20000)
          (combine (perceptron (n := 320000) x1 x4 (shapeCast Cert.KernelIdeal.S1x512 x5 h5) x6 (shapeCast Cert.KernelIdeal.S1x256 x7 h7))
            x0 x2 x3 x12)
          x8 (shapeCast Cert.KernelIdeal.S1x512 x9 h5) x10 (shapeCast Cert.KernelIdeal.S1x256 x11 h7) := by
  funext i
  obtain ⟨r, q, rfl⟩ : ∃ (r : Fin 20000) (q : Fin 256), i = ix2 r q := ⟨i 0, i 1, eq_ix2 i⟩
  refine (Cert.ReferenceIdeal.Rows.node_stage x0 x1 x2 x3 x4 x5 x6 x7 x8 x9 x10 x11 x12 r q).trans ?_
  refine Cert.Mlp.row_congr (fun j => ?_) (fun _ _ => rfl) (fun k => ?_) (fun _ _ => rfl) (fun q => ?_) rfl
  · exact congrFun ((stage_eq x0 x1 x2 x3 x4 x5 x6 x7 x12).trans
      (congrArg (fun E => combine E x0 x2 x3 x12) (edge_eq x1 x4 x5 x6 x7 h5 h7))) (ix2 r j)
  · exact (Cert.Layout.shapeCast_row_apply x9 h5 k).symm
  · exact (Cert.Layout.shapeCast_row_apply x11 h7 q).symm

end Cert.Bridge

end
-- ==== Proof.lean ====
/-
  A graph layer with edge features: two perceptrons around one round of message passing.

  Both programs compute, for node features `node`, edge features `edge`, edges `src → dst` and a scalar `eps`,

      E   = relu (edge · We1 + be1) · We2 + be2                        (one row per edge)
      msg = relu (node[src] + E)                                        (one row per edge)
      out = relu (((1 + eps) · node + Σ_{dst = ·} msg) · Wn1 + bn1) · Wn2 + bn2      (one row per node)

  The reference applies each line to whole matrices.  The kernel program runs the first and the last line as launches
  over blocks of rows (100 blocks of 3200 edges, 5 blocks of 4000 nodes), casting the matrix products' operands to a
  narrower float format and accumulating into zero, and runs the middle line as the reference does.  Over the extended
  reals a format change is the identity and a product into a zero accumulator is the plain sum over the shared
  coordinate, and a perceptron's output row depends on its own input row only, so cutting the rows into blocks changes no
  entry: each launch leaves the perceptron of every row (Proof/KernelRows, Proof/KernelBlocks).  The middle stretch is
  the same function on both sides and is never opened (Proof/Combine).  Hence the kernel program's result
  (Proof/KernelRun) and the reference's (Proof/ReferenceRows, Proof/Bridge) are one function of the arguments.  No law
  used here needs the inputs to be finite: only that equal terms are equal, and that a vector re-laid as a one-row
  matrix keeps its entries.

  The idealized kernel is the kernel's own text read over the extended reals (no operation was rewritten), so that
  conjunct is trivial; the three programs terminate without fault with their arguments unchanged.
-/
import proofs.«144472_j88845693485603_1_alg».proof.Defs
import proofs.«144472_j88845693485603_1_alg».proof.Proof.Gen.Kernel
import proofs.«144472_j88845693485603_1_alg».proof.Proof.Gen.Kernel.Skeleton
import proofs.«144472_j88845693485603_1_alg».proof.Proof.Gen.Kernel.Launch
import proofs.«144472_j88845693485603_1_alg».proof.Proof.Gen.Kernel.Points
import proofs.«144472_j88845693485603_1_alg».proof.Proof.Gen.Kernel.Frame
import proofs.«144472_j88845693485603_1_alg».proof.Proof.Gen.KernelIdeal
import proofs.«144472_j88845693485603_1_alg».proof.Proof.Gen.KernelIdeal.Skeleton
import proofs.«144472_j88845693485603_1_alg».proof.Proof.Gen.KernelIdeal.Launch
import proofs.«144472_j88845693485603_1_alg».proof.Proof.Gen.KernelIdeal.Points
import proofs.«144472_j88845693485603_1_alg».proof.Proof.Gen.KernelIdeal.Frame
import proofs.«144472_j88845693485603_1_alg».proof.Proof.Gen.ReferenceIdeal
import proofs.«144472_j88845693485603_1_alg».proof.Proof.Gen.Pre_finite_inputs
import proofs.«144472_j88845693485603_1_alg».proof.Proof.Gen.ReferenceIdeal.Run
import proofs.«144472_j88845693485603_1_alg».proof.Proof.Gen.ReferenceIdeal.Read
import proofs.«144472_j88845693485603_1_alg».proof.Proof.KernelRun
import proofs.«144472_j88845693485603_1_alg».proof.Proof.Bridge
import Idealize.ShloMosaic.Adequacy
import Idealize.ShloMosaic.Init

noncomputable section

namespace Cert.Proof

open Idealize.ShloMosaic Idealize.SL.Sem

/-- The word-level kernel program runs to the end, nothing faulting, its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- And the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the node perceptron of
    `combine` of the edge perceptron, of those arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v34_eq,
    Cert.Bridge.result_eq _ _ _ _ _ _ _ _ _ _ _ _ _ Cert.KernelIdeal.Gen.shapeCasts_S512_S1x512 Cert.KernelIdeal.Gen.shapeCasts_S256_S1x256,
    a0, a1, a2, a3, a4, a5, a6, a7, a8, a9, a10, a11, a12]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
